-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x262144 : Shape := ⟨3, ![32, 8, 262144]⟩
abbrev S32x8 : Shape := ⟨2, ![32, 8]⟩
abbrev S_ : Shape := ⟨0, ![]⟩

class Facts : Prop where
  bcast_S_S32x8x262144 : S_.BroadcastsInDim S32x8x262144 (![] : Fin 0 → Fin S32x8x262144.rank)
  reducesTo_S32x8x262144_S_d0_1_2 : S32x8x262144.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S32x8x262144 .f32) (main_arg1 : FVec F S32x8x262144 .f32) (main_arg2 : FVec F S32x8 .f32) : IVec S_ 1 :=
  let main_v0 : FVec F S32x8x262144 .f32 := Host.absf main_arg0
  let main_cst : FVec F S_ .f32 := constant S_ .f32 0x7F800000#32
  let main_v1 : FVec F S32x8x262144 .f32 := broadcastInDim S32x8x262144 ![] bcast_S_S32x8x262144 main_cst
  let main_v2 : IVec S32x8x262144 1 := cmpf .olt main_v0 main_v1
  let main_c : IVec S_ 1 := constantI S_ 1 1#1
  let main_v3 : IVec S_ 1 := (fun x v => Host.reduce IntOp.andi x v reducesTo_S32x8x262144_S_d0_1_2 h_S_) main_v2 main_c
  let main_v4 : FVec F S32x8x262144 .f32 := Host.absf main_arg1
  let main_cst_0 : FVec F S_ .f32 := constant S_ .f32 0x7F800000#32
  let main_v5 : FVec F S32x8x262144 .f32 := broadcastInDim S32x8x262144 ![] bcast_S_S32x8x262144 main_cst_0
  let main_v6 : IVec S32x8x262144 1 := cmpf .olt main_v4 main_v5
  let main_c_1 : IVec S_ 1 := constantI S_ 1 1#1
  let main_v7 : IVec S_ 1 := (fun x v => Host.reduce IntOp.andi x v reducesTo_S32x8x262144_S_d0_1_2 h_S_) main_v6 main_c_1
  let main_v8 : IVec S_ 1 := andi main_v3 main_v7
  let main_v9 : FVec F S32x8 .f32 := Host.absf main_arg2
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  main_v13
-- ==== Kernel.lean ====
abbrev S32x8x262144 : Shape := ⟨3, ![32, 8, 262144]⟩
abbrev S32x8 : Shape := ⟨2, ![32, 8]⟩
abbrev S_ : Shape := ⟨0, ![]⟩
abbrev S32x8x1 : Shape := ⟨3, ![32, 8, 1]⟩
abbrev S1x8x262144 : Shape := ⟨3, ![1, 8, 262144]⟩
abbrev S1x8x65536 : Shape := ⟨3, ![1, 8, 65536]⟩
abbrev S1x8x1 : Shape := ⟨3, ![1, 8, 1]⟩
abbrev S8x8 : Shape := ⟨2, ![8, 8]⟩
abbrev S8x262144 : Shape := ⟨2, ![8, 262144]⟩
abbrev S8 : Shape := ⟨1, ![8]⟩
abbrev S8x1 : Shape := ⟨2, ![8, 1]⟩
abbrev S8x65536 : Shape := ⟨2, ![8, 65536]⟩

abbrev nBuf : Space → Nat
  | .hbm => 13
  | .vmem => 9
  | .smem => 0
  | _ => 0

abbrev bufTy : (tb : Table) → Fin (tcTables nBuf tb) → BufTy
  | .hbm, ⟨0, _⟩ => ⟨S32x8x262144, .f32⟩
  | .hbm, ⟨1, _⟩ => ⟨S32x8x262144, .f32⟩
  | .hbm, ⟨2, _⟩ => ⟨S32x8, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32x8, .f32⟩
  | .hbm, ⟨7, _⟩ => ⟨S32x8, .f32⟩
  | .hbm, ⟨8, _⟩ => ⟨S_, .f32⟩
  | .hbm, ⟨9, _⟩ => ⟨S32x8, .f32⟩
  | .hbm, ⟨10, _⟩ => ⟨S32x8, .f32⟩
  | .hbm, ⟨11, _⟩ => ⟨S32x8x1, .f32⟩
  | .hbm, ⟨12, _⟩ => ⟨S32x8x262144, .f32⟩
  | .local _ .vmem, ⟨0, _⟩ => ⟨S1x8x262144, .f32⟩
  | .local _ .vmem, ⟨1, _⟩ => ⟨S1x8x262144, .f32⟩
  | .local _ .vmem, ⟨2, _⟩ => ⟨S1x8x65536, .f32⟩
  | .local _ .vmem, ⟨3, _⟩ => ⟨S1x8x65536, .f32⟩
  | .local _ .vmem, ⟨4, _⟩ => ⟨S1x8x1, .f32⟩
  | .local _ .vmem, ⟨5, _⟩ => ⟨S1x8x1, .f32⟩
  | .local _ .vmem, ⟨6, _⟩ => ⟨S1x8x65536, .f32⟩
  | .local _ .vmem, ⟨7, _⟩ => ⟨S1x8x65536, .f32⟩
  | .local _ .vmem, ⟨8, _⟩ => ⟨S8x8, .bf16⟩
  | _, _ => ⟨S32x8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c65536_i32 : BitVec 32 := 65536#32
  let v4 : BitVec 32 := Scalar.muli arg1 c65536_i32
  v4
def k0_off1 (i : grid0.Coords) : Fin 3 → Nat :=
  let c0_2 : Index := 0#32
  let c0_3 : Index := 0#32
  let arg1 : BitVec 32 := BitVec.ofNat 32 (i 1).val
  let c65536_i32 : BitVec 32 := 65536#32
  let v4 : BitVec 32 := Scalar.muli arg1 c65536_i32
  let v5 : BitVec 32 := v4
  let v6 : Index := Scalar.indexCast v5
  ![0, 0, v6.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  inb_S1x8x262144_S1x8x262144_0_0_0 : ∀ a, (![0, 0, 0] : Fin 3 → Nat) a + S1x8x262144.size a ≤ S1x8x262144.size a
  h_S1x8x262144 : 0 < S1x8x262144.numel
  shapeCasts_S1x8x262144_S8x262144 : S1x8x262144.ShapeCasts S8x262144
  bitsLt_bf16_f32 : FTy.bits .bf16 < FTy.bits .f32
  reduces_S8x8_S8 : S8x8.Reduces [1] S8
  shapeCasts_S8_S8x1 : S8.ShapeCasts S8x1
  broadcasts_S8x1_S8x8 : S8x1.Broadcasts S8x8
  inb_S8x8_S8x8_0_0 : ∀ a, (![0, 0] : Fin 2 → Nat) a + S8x8.size a ≤ S8x8.size a
  h_S8x8 : 0 < S8x8.numel
  shapeCasts_S8x8_S8x8 : S8x8.ShapeCasts S8x8
  packedbf16_S8x8_S8x8_0_0 : (Rect.unit (s := S8x8) ![0, 0] S8x8.size inb_S8x8_S8x8_0_0).PackedRows (EltTy.packing .bf16)
  h_S1x8x65536 : 0 < S1x8x65536.numel
  shapeCasts_S1x8x65536_S8x65536 : S1x8x65536.ShapeCasts S8x65536
  inb_S1x8x65536_S1x8x65536_0_0_0 : ∀ a, (![0, 0, 0] : Fin 3 → Nat) a + S1x8x65536.size a ≤ S1x8x65536.size a
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  broadcasts_S8x1_S8x65536 : S8x1.Broadcasts S8x65536
  shapeCasts_S8x65536_S1x8x65536 : S8x65536.ShapeCasts S1x8x65536
  dot_S8x262144_S8x262144_S8x8_1_1_0_0_n_n_wf : DotDims.WF S8x262144 S8x262144 S8x8 [1] [1] [0] [0] [] []
  dot_S8x8_S8x65536_S8x65536_1_0_0_1_n_n_wf : DotDims.WF S8x8 S8x65536 S8x65536 [1] [0] [0] [1] [] []
  hrank0 : 0 < grid0.rank
  k0_mult1_dvd : ∀ i : grid0.Coords, 65536 ∣ (k0_mult1 i).toNat
  k0_off1_inb : ∀ i : grid0.Coords, ∀ a, (k0_off1 i) a + S1x8x65536.size a ≤ S1x8x262144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x262144.size a ≤ S32x8x262144.size a
  hwx0_0 : ∀ i : grid0.Coords, EltTy.bits .f32 = 32 ∨ (Rect.block (s := S32x8x262144) S1x8x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x65536.size a ≤ S32x8x262144.size a
  hwx0_1 : ∀ i : grid0.Coords, EltTy.bits .f32 = 32 ∨ (Rect.block (s := S32x8x262144) S1x8x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1.size a ≤ S32x8x1.size a
  hwx0_2 : ∀ i : grid0.Coords, EltTy.bits .f32 = 32 ∨ (Rect.block (s := S32x8x1) S1x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x65536.size a ≤ S32x8x262144.size a
  hwx0_3 : ∀ i : grid0.Coords, EltTy.bits .f32 = 32 ∨ (Rect.block (s := S32x8x262144) S1x8x65536.size (cc0_transform_3 i) (hinb0_3 i)).WholeWords (EltTy.packing .f32)

variable [Facts₀]

def dot_S8x262144_S8x262144_S8x8_1_1_0_0_n_n : DotDims S8x262144 S8x262144 S8x8 where
  lhsContracting := [1]
  rhsContracting := [1]
  lhsNonContracting := [0]
  rhsNonContracting := [0]
  lhsBatch := []
  rhsBatch := []
  wf := dot_S8x262144_S8x262144_S8x8_1_1_0_0_n_n_wf
def dot_S8x8_S8x65536_S8x65536_1_0_0_1_n_n : DotDims S8x8 S8x65536 S8x65536 where
  lhsContracting := [1]
  rhsContracting := [0]
  lhsNonContracting := [0]
  rhsNonContracting := [1]
  lhsBatch := []
  rhsBatch := []
  wf := dot_S8x8_S8x65536_S8x65536_1_0_0_1_n_n_wf

abbrev win0_0 : Pipeline.Window sig grid0 :=
  Pipeline.Window.ofSpec (Memref.whole main_arg1) S1x8x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8x65536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8x262144 : Shape := ⟨3, ![32, 8, 262144]⟩
abbrev S32x8 : Shape := ⟨2, ![32, 8]⟩
abbrev S_ : Shape := ⟨0, ![]⟩
abbrev S32x8x8 : Shape := ⟨3, ![32, 8, 8]⟩
abbrev S32x8x1 : Shape := ⟨3, ![32, 8, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x8x262144, .f32⟩
  | .hbm, ⟨1, _⟩ => ⟨S32x8x262144, .f32⟩
  | .hbm, ⟨2, _⟩ => ⟨S32x8, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32x8x8, .f32⟩
  | .hbm, ⟨7, _⟩ => ⟨S32x8x8, .f32⟩
  | .hbm, ⟨8, _⟩ => ⟨S32x8x8, .f32⟩
  | .hbm, ⟨9, _⟩ => ⟨S_, .f32⟩
  | .hbm, ⟨10, _⟩ => ⟨S32x8, .f32⟩
  | .hbm, ⟨11, _⟩ => ⟨S_, .f32⟩
  | .hbm, ⟨12, _⟩ => ⟨S32x8, .f32⟩
  | .hbm, ⟨13, _⟩ => ⟨S32x8, .f32⟩
  | .hbm, ⟨14, _⟩ => ⟨S32x8x1, .f32⟩
  | .hbm, ⟨15, _⟩ => ⟨S32x8x8, .f32⟩
  | .hbm, ⟨16, _⟩ => ⟨S32x8x8, .f32⟩
  | .hbm, ⟨17, _⟩ => ⟨S32x8x8, .f32⟩
  | .hbm, ⟨18, _⟩ => ⟨S_, .f32⟩
  | .hbm, ⟨19, _⟩ => ⟨S32x8, .f32⟩
  | .hbm, ⟨20, _⟩ => ⟨S32x8x1, .f32⟩
  | .hbm, ⟨21, _⟩ => ⟨S32x8x8, .f32⟩
  | .hbm, ⟨22, _⟩ => ⟨S32x8x8, .f32⟩
  | .hbm, ⟨23, _⟩ => ⟨S32x8x262144, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x8, .f32⟩
  | .hbm, ⟨28, _⟩ => ⟨S32x8, .f32⟩
  | .hbm, ⟨29, _⟩ => ⟨S_, .f32⟩
  | .hbm, ⟨30, _⟩ => ⟨S32x8, .f32⟩
  | .hbm, ⟨31, _⟩ => ⟨S32x8, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x262144, .f32⟩
  | .hbm, ⟨37, _⟩ => ⟨S32x8x262144, .f32⟩
  | .hbm, ⟨38, _⟩ => ⟨S32x8x262144, .f32⟩
  | .hbm, ⟨39, _⟩ => ⟨S32x8x262144, .f32⟩
  | .hbm, ⟨40, _⟩ => ⟨S32x8x262144, .f32⟩
  | .hbm, ⟨41, _⟩ => ⟨S32x8x262144, .f32⟩
  | _, _ => ⟨S32x8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S32x8x8 : S_.BroadcastsInDim S32x8x8 (![] : Fin 0 → Fin S32x8x8.rank)
  reducesTo_S32x8x8_S32x8_d2 : S32x8x8.ReducesTo [2] S32x8
  h_S_ : 0 < S_.numel
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  bcast_S32x8x1_S32x8x8_0_1_2 : S32x8x1.BroadcastsInDim S32x8x8 (![0, 1, 2] : Fin 3 → Fin S32x8x8.rank)
  bcast_S_S32x8x1 : S_.BroadcastsInDim S32x8x1 (![] : Fin 0 → Fin S32x8x1.rank)
  bcast_S32x8x1_S32x8x262144_0_1_2 : S32x8x1.BroadcastsInDim S32x8x262144 (![0, 1, 2] : Fin 3 → Fin S32x8x262144.rank)
  dot_S32x8x262144_S32x8x262144_S32x8x8_2_2_1_1_0_0_wf : DotDims.WF S32x8x262144 S32x8x262144 S32x8x8 [2] [2] [1] [1] [0] [0]
  dot_S32x8x8_S32x8x262144_S32x8x262144_2_1_1_2_0_0_wf : DotDims.WF S32x8x8 S32x8x262144 S32x8x262144 [2] [1] [1] [2] [0] [0]

variable [Facts₀]

def dot_S32x8x262144_S32x8x262144_S32x8x8_2_2_1_1_0_0 : DotDims S32x8x262144 S32x8x262144 S32x8x8 where
  lhsContracting := [2]
  rhsContracting := [2]
  lhsNonContracting := [1]
  rhsNonContracting := [1]
  lhsBatch := [0]
  rhsBatch := [0]
  wf := dot_S32x8x262144_S32x8x262144_S32x8x8_2_2_1_1_0_0_wf
def dot_S32x8x8_S32x8x262144_S32x8x262144_2_1_1_2_0_0 : DotDims S32x8x8 S32x8x262144 S32x8x262144 where
  lhsContracting := [2]
  rhsContracting := [1]
  lhsNonContracting := [1]
  rhsNonContracting := [2]
  lhsBatch := [0]
  rhsBatch := [0]
  wf := dot_S32x8x8_S32x8x262144_S32x8x262144_2_1_1_2_0_0_wf

class Facts : Prop extends Facts₀ where

variable [Facts]
-- ==== Proof.CaseValues.lean ====
/-
  WHAT EACH CASE OF THE BODY LEAVES, as the body's two pure payloads of the blocks it reads.

  The body has two cases. At the first chunk of a layer (lane-block coordinate 0) it computes the layer's
  8×8 weight matrix from the WHOLE resident block of `delta` and stores it in the scratch it carries to the
  layer's later chunks; at every chunk it then reads the scratch back and stores the output chunk. So:

  * first-chunk case: the scratch ends holding the weights of the resident block, and the output chunk is
    computed from those same weights (the read-back of the store just made);
  * later-chunk case: the scratch is left as the point before left it, and the output chunk is computed
    from those carried contents.

  In both, the second operand of the output's payload is the resident block read at the chunk's lane
  offset (`chunk`), the third and fourth the other two input blocks whole. Stated at any float instance.
-/
import proofs.«159951_j42752104464609_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The chunk of the resident `[1, 8, 262144]` block the body loads at the point's lane offset. -/
abbrev chunk (i : grid0.Coords) (x0 : Vec F S1x8x262144 .f32) : Vec F S1x8x65536 .f32 :=
  View.ld x0 (Rect.unit (s := S1x8x262144) (k0_off1 i) S1x8x65536.size (k0_off1_inb i))

/-- FIRST-CHUNK CASE, the carried scratch: the weights of the resident block. -/
theorem scratch_first (c : Dev nD) (i : grid0.Coords) (a2 : Memref sig .tc .vmem S1x8x262144 .f32) (h2 : a2.IsWhole)
    (a3 : Memref sig .tc .vmem S1x8x65536 .f32) (h3 : a3.IsWhole) (a4 : Memref sig .tc .vmem S1x8x1 .f32) (h4 : a4.IsWhole)
    (a5 : Memref sig .tc .vmem S1x8x65536 .f32) (h5 : a5.IsWhole) (a6 : Memref sig .tc .vmem S8x8 .bf16) (h6 : a6.IsWhole)
    (hc : cond0_0 i) (x0 : Vec F S1x8x262144 .f32) (x1 : Vec F S1x8x65536 .f32) (x2 : Vec F S1x8x1 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_run_names
  rw [View.canon_unit_zero zero2]
  simp only [View.readAt_eq_ld, h2.read_unread, View.ld_unit_zero (S := S1x8x262144) zero3]

/-- FIRST-CHUNK CASE, the output chunk: computed from the weights just stored. -/
theorem out_first (c : Dev nD) (i : grid0.Coords) (a2 : Memref sig .tc .vmem S1x8x262144 .f32) (h2 : a2.IsWhole)
    (a3 : Memref sig .tc .vmem S1x8x65536 .f32) (h3 : a3.IsWhole) (a4 : Memref sig .tc .vmem S1x8x1 .f32) (h4 : a4.IsWhole)
    (a5 : Memref sig .tc .vmem S1x8x65536 .f32) (h5 : a5.IsWhole) (a6 : Memref sig .tc .vmem S8x8 .bf16) (h6 : a6.IsWhole)
    (hc : cond0_0 i) (x0 : Vec F S1x8x262144 .f32) (x1 : Vec F S1x8x65536 .f32) (x2 : Vec F S1x8x1 .f32) :
    out0_A_3 c i a2 h2 a3 h3 a4 h4 a5 h5 a6 h6 hc x0 x1 x2 = k0_pay2 (k0_pay1 x0) (chunk i x0) x1 x2 := by
  unfold out0_A_3
  rw [View.read_writes_eq_canon _ _ _ (cover0_A_3 c i a2 h2 a3 h3 a4 h4 a5 h5 a6 h6 hc x0 x1 x2)]
  unfold kernelRun0_A
  dsimp only
  sl_unfold_run_names
  rw [View.canon_unit_zero zero3, View.readCov_unit_zero (S := S8x8) _ zero2]
  simp only [View.readAt_eq_ld, h2.read_unread, h3.read_unread, h4.read_unread,
    View.ld_unit_zero (S := S1x8x262144) zero3, View.ld_unit_zero (S := S1x8x65536) zero3,
    View.ld_unit_zero (S := S1x8x1) zero3]

/-- LATER-CHUNK CASE, the output chunk: computed from the carried scratch contents `xs`. -/
theorem out_later (c : Dev nD) (i : grid0.Coords) (a2 : Memref sig .tc .vmem S1x8x262144 .f32) (h2 : a2.IsWhole)
    (a3 : Memref sig .tc .vmem S1x8x65536 .f32) (h3 : a3.IsWhole) (a4 : Memref sig .tc .vmem S1x8x1 .f32) (h4 : a4.IsWhole)
    (a5 : Memref sig .tc .vmem S1x8x65536 .f32) (h5 : a5.IsWhole) (a6 : Memref sig .tc .vmem S8x8 .bf16) (h6 : a6.IsWhole)
    (hc : ¬cond0_0 i) (x0 : Vec F S1x8x262144 .f32) (x1 : Vec F S1x8x65536 .f32) (x2 : Vec F S1x8x1 .f32) (xs : Vec F S8x8 .bf16) :
    out0_B_3 c i a2 h2 a3 h3 a4 h4 a5 h5 a6 h6 hc x0 x1 x2 xs = k0_pay2 xs (chunk i x0) x1 x2 := by
  unfold out0_B_3
  rw [View.read_writes_eq_canon _ _ _ (cover0_B_3 c i a2 h2 a3 h3 a4 h4 a5 h5 a6 h6 hc x0 x1 x2 xs)]
  unfold kernelRun0_B
  dsimp only
  sl_unfold_run_names
  rw [View.canon_unit_zero zero3]
  simp only [View.readAt_eq_ld, h2.read_unread, h3.read_unread, h4.read_unread, h6.read_unread,
    View.ld_unit_zero (S := S8x8) zero2, View.ld_unit_zero (S := S1x8x65536) zero3,
    View.ld_unit_zero (S := S1x8x1) zero3]

end Cert.KernelIdeal.CaseValues

end
-- ==== Proof.Products.lean ====
/-
  The body's two matrix products at the ideal values, read at explicit coordinates.

  * the rows' inner products: an `[8, 262144]` array multiplied by itself with the long axis contracted on
    both sides, into a zero accumulator, holds at `(k, m)` the sum over the 262144 lanes of row `k` times
    row `m`;
  * the weights applied to a chunk: an `[8, 8]` array times an `[8, 65536]` array, into a zero accumulator,
    holds at `(k, j)` the sum over `m` of the weight `(k, m)` times the chunk's entry `(m, j)`.

  Each is the product's definition (accumulator plus the sum over the contraction index) with the
  contraction index re-indexed by its one coordinate and the operands' indices named by coordinates.
-/
import proofs.«159951_j42752104464609_2_alg».proof.Proof.Gen.KernelIdeal
import Idealize.ShloMosaic.PureOps.Ideal.Laws
import Idealize.ShloMosaic.Lib.ValueIdx

noncomputable section

open scoped BigOperators

namespace Cert.KernelIdeal.Products

open Cert.KernelIdeal Idealize.ShloMosaic Idealize.ShloMosaic.ValueIdx

/-- The dimension numbers of the rows' inner products. -/
abbrev DG := dot_S8x262144_S8x262144_S8x8_1_1_0_0_n_n
/-- The dimension numbers of the weights applied to a chunk. -/
abbrev DW := dot_S8x8_S8x65536_S8x65536_1_0_0_1_n_n

theorem gram_lhs0 (i : S8x8.Idx) (q : DG.contr.Idx) : (DG.lhsIdx i q 0).val = (i 0).val := by
  unfold DotDims.lhsIdx
  rw [dif_neg (show ¬(0 : Fin S8x262144.rank) ∈ DG.lhsBatch by decide), dif_pos (show (0 : Fin S8x262144.rank) ∈ DG.lhsNonContracting by decide)]
  rfl
theorem gram_lhs1 (i : S8x8.Idx) (q : DG.contr.Idx) : (DG.lhsIdx i q 1).val = (q ⟨0, by decide⟩).val :=
  DG.lhsIdx_val_of_single rfl i q
theorem gram_rhs0 (i : S8x8.Idx) (q : DG.contr.Idx) : (DG.rhsIdx i q 0).val = (i 1).val := by
  unfold DotDims.rhsIdx
  rw [dif_neg (show ¬(0 : Fin S8x262144.rank) ∈ DG.rhsBatch by decide), dif_pos (show (0 : Fin S8x262144.rank) ∈ DG.rhsNonContracting by decide)]
  rfl
theorem gram_rhs1 (i : S8x8.Idx) (q : DG.contr.Idx) : (DG.rhsIdx i q 1).val = (q ⟨0, by decide⟩).val :=
  DG.rhsIdx_val_of_single rfl i q

/-- THE ROWS' INNER PRODUCTS at `(k, m)`: the sum over the lanes of row `k` times row `m`. -/
theorem gram_apply (u w : FVec Ideal S8x262144 .bf16) (k m : Fin 8) :
    matmul DG none u w (constant S8x8 .f32 0x00000000#32) (ix2 k m) = ∑ j : Fin 262144, u (ix2 k j) * w (ix2 m j) := by
  refine (Ideal.matmul_constant_zero_apply DG none u w (ix2 k m)).trans ?_
  rw [← Equiv.sum_comp (contrEquiv1 DG 262144 rfl rfl).symm]
  refine Finset.sum_congr rfl fun j _ => ?_
  have hk := contrEquiv1_symm_val DG 262144 rfl rfl j
  have el : DG.lhsIdx (ix2 k m) ((contrEquiv1 DG 262144 rfl rfl).symm j) = ix2 k j := funext fun a => Fin.ext (by
    match a with
    | ⟨0, _⟩ => exact gram_lhs0 _ _
    | ⟨1, _⟩ => exact (gram_lhs1 _ _).trans hk)
  have er : DG.rhsIdx (ix2 k m) ((contrEquiv1 DG 262144 rfl rfl).symm j) = ix2 m j := funext fun a => Fin.ext (by
    match a with
    | ⟨0, _⟩ => exact gram_rhs0 _ _
    | ⟨1, _⟩ => exact (gram_rhs1 _ _).trans hk)
  rw [el, er]

theorem wts_lhs0 (i : S8x65536.Idx) (q : DW.contr.Idx) : (DW.lhsIdx i q 0).val = (i 0).val := by
  unfold DotDims.lhsIdx
  rw [dif_neg (show ¬(0 : Fin S8x8.rank) ∈ DW.lhsBatch by decide), dif_pos (show (0 : Fin S8x8.rank) ∈ DW.lhsNonContracting by decide)]
  rfl
theorem wts_lhs1 (i : S8x65536.Idx) (q : DW.contr.Idx) : (DW.lhsIdx i q 1).val = (q ⟨0, by decide⟩).val :=
  DW.lhsIdx_val_of_single rfl i q
theorem wts_rhs0 (i : S8x65536.Idx) (q : DW.contr.Idx) : (DW.rhsIdx i q 0).val = (q ⟨0, by decide⟩).val :=
  DW.rhsIdx_val_of_single rfl i q
theorem wts_rhs1 (i : S8x65536.Idx) (q : DW.contr.Idx) : (DW.rhsIdx i q 1).val = (i 1).val := by
  unfold DotDims.rhsIdx
  rw [dif_neg (show ¬(1 : Fin S8x65536.rank) ∈ DW.rhsBatch by decide), dif_pos (show (1 : Fin S8x65536.rank) ∈ DW.rhsNonContracting by decide)]
  rfl

/-- THE WEIGHTS APPLIED TO A CHUNK at `(k, j)`: the sum over `m` of weight `(k, m)` times entry `(m, j)`. -/
theorem wts_apply (a : FVec Ideal S8x8 .bf16) (u : FVec Ideal S8x65536 .bf16) (k : Fin 8) (j : Fin 65536) :
    matmul DW none a u (constant S8x65536 .f32 0x00000000#32) (ix2 k j) = ∑ m : Fin 8, a (ix2 k m) * u (ix2 m j) := by
  refine (Ideal.matmul_constant_zero_apply DW none a u (ix2 k j)).trans ?_
  rw [← Equiv.sum_comp (contrEquiv1 DW 8 rfl rfl).symm]
  refine Finset.sum_congr rfl fun m _ => ?_
  have hk := contrEquiv1_symm_val DW 8 rfl rfl m
  have el : DW.lhsIdx (ix2 k j) ((contrEquiv1 DW 8 rfl rfl).symm m) = ix2 k m := funext fun a => Fin.ext (by
    match a with
    | ⟨0, _⟩ => exact wts_lhs0 _ _
    | ⟨1, _⟩ => exact (wts_lhs1 _ _).trans hk)
  have er : DW.rhsIdx (ix2 k j) ((contrEquiv1 DW 8 rfl rfl).symm m) = ix2 m j := funext fun a => Fin.ext (by
    match a with
    | ⟨0, _⟩ => exact (wts_rhs0 _ _).trans hk
    | ⟨1, _⟩ => exact wts_rhs1 _ _)
  rw [el, er]

end Cert.KernelIdeal.Products

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowSoftmax.lean ====
/-
  A row-wise softmax on the vector unit, read at explicit coordinates of a `[B, n]` array.

  * the maximum over the lanes of row `p`, taken from the value the accumulator's word denotes, is the
    greatest of that value and the row's `n` entries;
  * the softmax as a kernel spells it with `keepdims` reductions — subtract the row's maximum (the
    maxima cast to a column and broadcast back along the lanes), exponentiate, divide by the row's sum of
    exponentials (cast and broadcast the same way) — holds at `(p, q)` the share
    `exp (s q - M) / ∑ k, exp (s k - M)` of row `p`, where `s` is the row and `M` its maximum.

  Statements about indices and extended reals only; nothing here mentions a program.
-/
import Idealize.ShloMosaic.PureOps.Ideal
import Idealize.ShloMosaic.PureOps.Ideal.Laws
import Idealize.ShloMosaic.Lib.ValueIdx
import Idealize.ShloMosaic.Lib.Pipeline.Value
import proofs.«159951_j42752104464609_2_alg».proof.Proof.LibRowLayout

noncomputable section

open scoped BigOperators

namespace Cert.RowSoftmax

open Idealize.ShloMosaic Idealize.ShloMosaic.ValueIdx Cert.RowLayout

/-- The greatest of `lo` and a row's entries. -/
def rowMax {n : Nat} (lo : EReal) (s : Fin n → EReal) : EReal := (Finset.univ : Finset (Fin n)).fold max lo s

/-- Entry `q`'s softmax share of its row: its exponential, shifted by the row's maximum, over the sum of
    the row's shifted exponentials. -/
def share {n : Nat} (lo : EReal) (s : Fin n → EReal) (q : Fin n) : EReal :=
  Ideal.div (Ideal.exp (s q - rowMax lo s)) (∑ k : Fin n, Ideal.exp (s k - rowMax lo s))

/-- The vector unit's maximum over the lanes is, in row `p`, the greatest of the accumulator's value and the
    row's `n` entries. -/
theorem laneMax_apply {B n : Nat} (v : FVec Ideal (⟨2, ![B, n]⟩ : Shape) .f32) (acc : BitVec 32)
    (h : Shape.Reduces (⟨2, ![B, n]⟩ : Shape) [(1 : Fin 2)] (⟨1, ![B]⟩ : Shape)) (hφ : FKind.Formats .f32)
    (hacc : acc = FKind.maximumf.neutral .f32 hφ) (p : Fin B) :
    multiReduction .maximumf [(1 : Fin 2)] (⟨1, ![B]⟩ : Shape) v acc h hφ hacc (ix1 p)
      = rowMax (Ideal.ofBits .f32 acc) (fun k : Fin n => v (ix2 p k)) := by
  refine (Ideal.multiReduction_maximumf_single v acc h hφ hacc (ix1 p)).trans ?_
  unfold rowMax
  refine Finset.fold_congr fun k _ => ?_
  exact congrArg v (funext fun a => Fin.ext (by match a with | ⟨0, _⟩ => rfl | ⟨1, _⟩ => rfl))

/-- THE ROW SOFTMAX with `keepdims` reductions: at `(p, q)` it is entry `q`'s share of row `p`. -/
theorem rowSoftmax_apply {B n : Nat} (S : FVec Ideal (⟨2, ![B, n]⟩ : Shape) .f32) (acc : BitVec 32)
    (hred : Shape.Reduces (⟨2, ![B, n]⟩ : Shape) [(1 : Fin 2)] (⟨1, ![B]⟩ : Shape))
    (hφM : FKind.Formats .f32) (haccM : acc = FKind.maximumf.neutral .f32 hφM)
    (hφA : FKind.Formats .f32) (haccA : (0x00000000#32 : BitVec 32) = FKind.add.neutral .f32 hφA)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf
        (exp (subf S (broadcastTo (⟨2, ![B, n]⟩ : Shape)
          (shapeCast (⟨2, ![B, 1]⟩ : Shape) (multiReduction .maximumf [(1 : Fin 2)] (⟨1, ![B]⟩ : Shape) S acc hred hφM haccM) hcast) hbc)))
        (broadcastTo (⟨2, ![B, n]⟩ : Shape)
          (shapeCast (⟨2, ![B, 1]⟩ : Shape)
            (multiReduction .add [(1 : Fin 2)] (⟨1, ![B]⟩ : Shape)
              (exp (subf S (broadcastTo (⟨2, ![B, n]⟩ : Shape)
                (shapeCast (⟨2, ![B, 1]⟩ : Shape) (multiReduction .maximumf [(1 : Fin 2)] (⟨1, ![B]⟩ : Shape) S acc hred hφM haccM) hcast) hbc)))
              0x00000000#32 hred hφA haccA) hcast) hbc) (ix2 p q)
      = share (Ideal.ofBits .f32 acc) (fun k : Fin n => S (ix2 p k)) q := by
  have hM : ∀ k : Fin n, broadcastTo (⟨2, ![B, n]⟩ : Shape)
        (shapeCast (⟨2, ![B, 1]⟩ : Shape) (multiReduction .maximumf [(1 : Fin 2)] (⟨1, ![B]⟩ : Shape) S acc hred hφM haccM) hcast) hbc (ix2 p k)
      = rowMax (Ideal.ofBits .f32 acc) (fun k : Fin n => S (ix2 p k)) := fun k =>
    (bcastCol_apply _ hbc p k).trans ((castCol_apply _ hcast p).trans (laneMax_apply S acc hred hφM haccM p))
  have hE : ∀ k : Fin n, (exp (subf S (broadcastTo (⟨2, ![B, n]⟩ : Shape)
        (shapeCast (⟨2, ![B, 1]⟩ : Shape) (multiReduction .maximumf [(1 : Fin 2)] (⟨1, ![B]⟩ : Shape) S acc hred hφM haccM) hcast) hbc))
        : FVec Ideal (⟨2, ![B, n]⟩ : Shape) .f32) (ix2 p k)
      = Ideal.exp (S (ix2 p k) - rowMax (Ideal.ofBits .f32 acc) (fun k : Fin n => S (ix2 p k))) := fun k =>
    congrArg (fun z => Ideal.exp (S (ix2 p k) - z)) (hM k)
  refine (rowShare_apply _ hred hφA haccA hcast hbc p q).trans ?_
  unfold share
  rw [hE q]
  exact congrArg _ (Finset.sum_congr rfl fun k _ => hE k)

end Cert.RowSoftmax

end
-- ==== Proof.PayloadsAt.lean ====
/-
  THE BODY'S TWO PAYLOADS AT THE IDEAL VALUES, each read at one index.

  * The weights (`k0_pay1` of the resident `[1, 8, 262144]` block `x0`): at `(k, m)` the softmax share, over
    `m`, of row `k`'s scaled inner products with the eight rows of the block. The changes of float format on
    the way into the product and out of the division are the identity on extended reals.
  * The output chunk (`k0_pay2` of the weights `a`, a `[1, 8, 65536]` chunk `x7` of the resident block, the
    `last_param` chunk `x1` and the gate column `x2`): at `(0, k, j)`

      x1[k, j] + ((1 - x2[k]) * x7[k, j] + x2[k] * ∑ m, a[k, m] * x7[m, j]).
-/
import proofs.«159951_j42752104464609_2_alg».proof.Proof.Gen.KernelIdeal.Skeleton
import proofs.«159951_j42752104464609_2_alg».proof.Proof.Products
import proofs.«159951_j42752104464609_2_alg».proof.Proof.LibRowSoftmax
import Idealize.ShloMosaic.Lib.ValueLayout

noncomputable section

open scoped BigOperators

namespace Cert.KernelIdeal.PayloadsAt

open Cert.KernelIdeal Cert.KernelIdeal.Gen Cert.KernelIdeal.Products Idealize.ShloMosaic Idealize.ShloMosaic.ValueIdx
open Cert.RowLayout Cert.RowSoftmax

/-- Row `k` of a resident block against each of its rows `m`: the inner products over the 262144 lanes,
    scaled by the word of 1/512. -/
def blockScores (x0 : Vec Ideal S1x8x262144 .f32) (k : Fin 8) : Fin 8 → EReal :=
  fun m => (∑ j : Fin 262144, x0 (ix3 (0 : Fin 1) k j) * x0 (ix3 (0 : Fin 1) m j)) * Ideal.ofBits .f32 0x3B000000#32

/-- THE WEIGHTS at `(k, m)`: row `k`'s softmax share for row `m`. -/
theorem weights_apply (x0 : Vec Ideal S1x8x262144 .f32) (k m : Fin 8) :
    k0_pay1 (F := Ideal) x0 (ix2 k m) = share (Ideal.ofBits .f32 0xFF800000#32) (blockScores x0 k) m := by
  unfold k0_pay1
  dsimp only
  refine (congrFun (shapeCast_self _ shapeCasts_S8x8_S8x8) (ix2 k m)).trans ?_
  refine (truncf_apply _ bitsLt_bf16_f32 (ix2 k m)).trans ?_
  refine (rowSoftmax_apply _ 0xFF800000#32 reduces_S8x8_S8 (.inl rfl) rfl (.inl rfl) rfl
    shapeCasts_S8_S8x1 broadcasts_S8x1_S8x8 k m).trans ?_
  refine congrArg (fun s => share (Ideal.ofBits .f32 0xFF800000#32) s m) (funext fun m' => ?_)
  refine congrArg (· * Ideal.ofBits .f32 0x3B000000#32) ?_
  refine (gram_apply _ _ k m').trans (Finset.sum_congr rfl fun j _ => ?_)
  exact congrArg₂ (· * ·) (shapeCast_1ab_ab_apply x0 shapeCasts_S1x8x262144_S8x262144 k j)
    (shapeCast_1ab_ab_apply x0 shapeCasts_S1x8x262144_S8x262144 m' j)

/-- THE OUTPUT CHUNK at `(0, k, j)`. -/
theorem chunk_apply (a : FVec Ideal S8x8 .bf16) (x7 x1 : FVec Ideal S1x8x65536 .f32) (x2 : FVec Ideal S1x8x1 .f32)
    (k : Fin 8) (j : Fin 65536) :
    k0_pay2 (F := Ideal) a x7 x1 x2 (ix3 (0 : Fin 1) k j)
      = x1 (ix3 (0 : Fin 1) k j) + ((Ideal.ofBits .f32 0x3F800000#32 - x2 (ix3 (0 : Fin 1) k (0 : Fin 1))) * x7 (ix3 (0 : Fin 1) k j)
          + x2 (ix3 (0 : Fin 1) k (0 : Fin 1)) * ∑ m : Fin 8, a (ix2 k m) * x7 (ix3 (0 : Fin 1) m j)) := by
  have e8 : ∀ m : Fin 8, shapeCast S8x65536 x7 shapeCasts_S1x8x65536_S8x65536 (ix2 m j) = x7 (ix3 (0 : Fin 1) m j) :=
    fun m => shapeCast_1ab_ab_apply x7 shapeCasts_S1x8x65536_S8x65536 m j
  have e10 : shapeCast S8x65536 x1 shapeCasts_S1x8x65536_S8x65536 (ix2 k j) = x1 (ix3 (0 : Fin 1) k j) :=
    shapeCast_1ab_ab_apply x1 shapeCasts_S1x8x65536_S8x65536 k j
  have e12 : shapeCast S8x1 x2 shapeCasts_S1x8x1_S8x1 (ix2 k (0 : Fin 1)) = x2 (ix3 (0 : Fin 1) k (0 : Fin 1)) :=
    shapeCast_1ab_ab_apply x2 shapeCasts_S1x8x1_S8x1 k (0 : Fin 1)
  have e17 : broadcastTo S8x65536 (subf (broadcast S8x1 (Scalar.ofBits (F := Ideal) .f32 0x3F800000#32)) (shapeCast S8x1 x2 shapeCasts_S1x8x1_S8x1))
        broadcasts_S8x1_S8x65536 (ix2 k j) = Ideal.ofBits .f32 0x3F800000#32 - x2 (ix3 (0 : Fin 1) k (0 : Fin 1)) :=
    (bcastCol_apply _ broadcasts_S8x1_S8x65536 k j).trans (congrArg (Ideal.ofBits .f32 0x3F800000#32 - ·) e12)
  have e19 : broadcastTo S8x65536 (shapeCast S8x1 x2 shapeCasts_S1x8x1_S8x1) broadcasts_S8x1_S8x65536 (ix2 k j)
      = x2 (ix3 (0 : Fin 1) k (0 : Fin 1)) :=
    (bcastCol_apply _ broadcasts_S8x1_S8x65536 k j).trans e12
  have e14 : matmul DW none a (truncf .bf16 (shapeCast S8x65536 x7 shapeCasts_S1x8x65536_S8x65536) bitsLt_bf16_f32)
        (constant S8x65536 .f32 0x00000000#32) (ix2 k j) = ∑ m : Fin 8, a (ix2 k m) * x7 (ix3 (0 : Fin 1) m j) :=
    (wts_apply a (truncf .bf16 (shapeCast S8x65536 x7 shapeCasts_S1x8x65536_S8x65536) bitsLt_bf16_f32) k j).trans
      (Finset.sum_congr rfl fun m _ => congrArg (a (ix2 k m) * ·) ((truncf_apply _ bitsLt_bf16_f32 (ix2 m j)).trans (e8 m)))
  unfold k0_pay2
  refine (shapeCast_ab_1ab_apply _ shapeCasts_S8x65536_S1x8x65536 (0 : Fin 1) k j).trans ?_
  exact congrArg₂ (· + ·) e10 (congrArg₂ (· + ·) (congrArg₂ (· * ·) e17 (e8 k)) (congrArg₂ (· * ·) e19 e14))

end Cert.KernelIdeal.PayloadsAt

end
-- ==== Proof.MixSpec.lean ====
/-
  THE SPECIFICATION both programs meet, as one function of the three argument arrays, index by index.

  For each of the 32 layers `l` the 8 rows of `delta[l]` (each of 262144 entries) are compared with one
  another: `score l k m` is the inner product of rows `k` and `m`, scaled by 1/512 (the inverse square
  root of the row length). Row `k`'s scores are turned into weights by a softmax over `m`, the weighted
  combination of the rows is blended with row `k` itself by the gate `g = clamp (gamma[l, k]) 0 1`, and
  the blend is added to `last_param`:

    out[l, k, j] = last_param[l, k, j] + ((1 - g) * delta[l, k, j] + g * ∑ m, weight l k m * delta[l, m, j]).

  Float literals stay the words both programs spell; only the scale is evaluated (Proof/Consts.lean).
-/
import Idealize.ShloMosaic.PureOps.Ideal
import Idealize.ShloMosaic.Lib.ValueIdx
import proofs.«159951_j42752104464609_2_alg».proof.Proof.LibRowSoftmax

noncomputable section

open scoped BigOperators

namespace Cert.AttnMix

open Idealize.ShloMosaic Idealize.ShloMosaic.ValueIdx Cert.RowSoftmax

/-- The shape of `last_param`, `delta` and the result. -/
abbrev Arr : Shape := ⟨3, ![32, 8, 262144]⟩
/-- The shape of `gamma`. -/
abbrev Gam : Shape := ⟨2, ![32, 8]⟩

/-- Row `k` of layer `l` against every row `m` of the layer: the scaled inner products. -/
def scoreRow (d : Arr.Idx → EReal) (l : Fin 32) (k : Fin 8) : Fin 8 → EReal :=
  fun m => (∑ j : Fin 262144, d (ix3 l k j) * d (ix3 l m j)) * Ideal.ofBits .f32 0x3B000000#32

/-- The softmax weight row `k` of layer `l` gives row `m` (the maximum taken from `-inf`). -/
def weight (d : Arr.Idx → EReal) (l : Fin 32) (k m : Fin 8) : EReal :=
  share (Ideal.ofBits .f32 0xFF800000#32) (scoreRow d l k) m

/-- The gate: `gamma[l, k]` clamped to `[0, 1]`. -/
def gate (g : Gam.Idx → EReal) (l : Fin 32) (k : Fin 8) : EReal :=
  min (Ideal.ofBits .f32 0x3F800000#32) (max (Ideal.ofBits .f32 0x00000000#32) (g (ix2 l k)))

/-- The result at `(l, k, j)`. -/
def mixAt (lp d : Arr.Idx → EReal) (g : Gam.Idx → EReal) (l : Fin 32) (k : Fin 8) (j : Fin 262144) : EReal :=
  lp (ix3 l k j) + ((Ideal.ofBits .f32 0x3F800000#32 - gate g l k) * d (ix3 l k j)
    + gate g l k * ∑ m : Fin 8, weight d l k m * d (ix3 l m j))

/-- The result array. -/
def mix (lp d : Arr.Idx → EReal) (g : Gam.Idx → EReal) : Arr.Idx → EReal :=
  fun i => mixAt lp d g (i 0) (i 1) (i 2)

theorem mix_ix3 (lp d : Arr.Idx → EReal) (g : Gam.Idx → EReal) (l : Fin 32) (k : Fin 8) (j : Fin 262144) :
    mix lp d g (ix3 l k j) = mixAt lp d g l k j := rfl

end Cert.AttnMix

end
-- ==== Proof.Entry.lean ====
/-
  WHAT THE REGION FINDS IN THE GATE COLUMN. Before the kernel is launched the host clamps `gamma` to
  `[0, 1]` — the maximum with a broadcast 0, then the minimum with a broadcast 1 — and broadcasts the
  `[32, 8]` result to a column `[32, 8, 1]`. So the array the third window stages holds, at `(l, k, 0)`,
  the gate of `gamma[l, k]`.
-/
import proofs.«159951_j42752104464609_2_alg».proof.Proof.Gen.KernelIdeal.Frame
import proofs.«159951_j42752104464609_2_alg».proof.Proof.MixSpec
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The gate column as the host's operations compute it from `gamma`. -/
theorem gateColumn_eq (c : Dev nD) :
    (V m c main_v1 : S32x8x1.Idx → EReal)
      = broadcastInDim S32x8x1 ![0, 1] bcast_S32x8_S32x8x1_0_1
          (minimumf (broadcastInDim S32x8 ![] bcast_S_S32x8 (id (constant (F := Ideal) S_ .f32 0x3F800000#32)))
            (maximumf (broadcastInDim S32x8 ![] bcast_S_S32x8 (id (constant (F := Ideal) S_ .f32 0x00000000#32)))
              (m ((c : Thread nD τ).loc main_arg2)))) := by
  dsimp only [V]
  simp only [hostOps0, hostOps0_1, hostOps0_2, List.flatten_cons, List.flatten_nil, List.append_nil, List.cons_append,
    List.nil_append]
  after_results
  rfl

/-- A broadcast scalar constant reads the constant's word everywhere. -/
theorem bcastConst_apply (w : BitVec 32) (l : Fin 32) (k : Fin 8) :
    broadcastInDim S32x8 ![] bcast_S_S32x8 (id (constant (F := Ideal) S_ .f32 w)) (ix2 l k) = Ideal.ofBits .f32 w :=
  broadcastInDim_apply _ bcast_S_S32x8 _ (ix2 l k) ix0 (fun a => a.elim0)

/-- THE GATE COLUMN at `(l, k, 0)` is the gate of `gamma[l, k]`. -/
theorem gateColumn_apply (c : Dev nD) (l : Fin 32) (k : Fin 8) :
    (V m c main_v1 : S32x8x1.Idx → EReal) (ix3 l k (0 : Fin 1))
      = Cert.AttnMix.gate (m ((c : Thread nD τ).loc main_arg2)) l k := by
  rw [gateColumn_eq]
  refine (broadcastInDim_apply _ bcast_S32x8_S32x8x1_0_1 _ (ix3 l k (0 : Fin 1)) (ix2 l k) (fun a => match a with
    | ⟨0, _⟩ => by show l.val = if (32 : Nat) = 1 then 0 else l.val; rw [if_neg (by decide)]
    | ⟨1, _⟩ => by show k.val = if (8 : Nat) = 1 then 0 else k.val; rw [if_neg (by decide)])).trans ?_
  show min (broadcastInDim S32x8 ![] bcast_S_S32x8 (id (constant (F := Ideal) S_ .f32 0x3F800000#32)) (ix2 l k))
      (max (broadcastInDim S32x8 ![] bcast_S_S32x8 (id (constant (F := Ideal) S_ .f32 0x00000000#32)) (ix2 l k))
        (m ((c : Thread nD τ).loc main_arg2) (ix2 l k))) = _
  rw [bcastConst_apply, bcastConst_apply]
  rfl

end Cert.KernelIdeal.Entry

end
-- ==== Proof.KernelMix.lean ====
/-
  THE KERNEL'S RESULT ARRAY IS THE SPECIFICATION, at the ideal values.

  The grid has 32 × 4 points in row-major order: point `t` works on layer `t / 4` and on lanes
  `65536 * (t % 4) …` of that layer. Its windows: the whole `[8, 262144]` slab of `delta` for the layer
  (resident across the layer's four points), the point's `[8, 65536]` chunk of `last_param`, the layer's
  gate column, and the point's chunk of the result.

  * At a layer's first point the body computes the layer's weights from the resident slab and leaves them
    in the scratch; the later points of the layer leave the scratch alone. So after EVERY point the
    scratch holds the weights of that point's layer (by induction on the point).
  * Hence at every point the chunk written back is the specification's chunk: the payload over the
    layer's weights, the slab read at the chunk's lanes, the `last_param` chunk and the gate column.
  * The 128 chunks tile the result array, so after the run it holds the specification everywhere.
-/
import proofs.«159951_j42752104464609_2_alg».proof.Proof.Gen.KernelIdeal.Value
import proofs.«159951_j42752104464609_2_alg».proof.Proof.CaseValues
import proofs.«159951_j42752104464609_2_alg».proof.Proof.PayloadsAt
import proofs.«159951_j42752104464609_2_alg».proof.Proof.Entry
import proofs.«159951_j42752104464609_2_alg».proof.Proof.MixSpec

noncomputable section

open scoped BigOperators

namespace Cert.KernelIdeal.Mix

open Cert.KernelIdeal Cert.KernelIdeal.Gen Idealize.ShloMosaic Idealize.ShloMosaic.TcCoe Idealize.SL.Sem
open Idealize.ShloMosaic.ValueIdx
open Idealize.ShloMosaic.Pipeline (Dat)
open Cert.AttnMix Cert.RowSoftmax Cert.KernelIdeal.CaseValues Cert.KernelIdeal.PayloadsAt Cert.KernelIdeal.Entry

variable (m : (ℓ : Loc nD τ sig) → Buf (Elt Ideal) ℓ) (ρ : Dev nD → PrngReg)

/-! ## Where a point works -/

/-- The layer point `n` works on. -/
def layer (n : ℕ) (h : n < cfg0.N) : Fin 32 := ⟨n / 4, by have hN : cfg0.N = 128 := N_0; omega⟩

/-- Lane `j` of point `n`'s chunk, as a lane of the layer's slab. -/
def lane (n : ℕ) (j : Fin 65536) : Fin 262144 := ⟨65536 * (n % 4) + j.val, by have := j.isLt; omega⟩

/-- The printed index maps, decided once over the 128 points: block indices `(t / 4, 0, 0)` for the slab
    and the gate column, `(t / 4, 0, t % 4)` for the two chunked windows; the lane-block coordinate is `t % 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4
    ∧ (grid0.coords t 1).val = t.val % 4 :=
  (by decide +kernel : ∀ t : Fin grid0.N, _)

/-! ## The blocks a point reads, as entries of the arrays the region finds -/

/-- The resident slab at `(0, k, j)` is `delta[layer, k, j]`. -/
theorem slab_apply (c : Dev nD) (t : Fin cfg0.N) (k : Fin 8) (j : Fin 262144) :
    (iblk m c 0 t : Vec Ideal S1x8x262144 .f32) (ix3 (0 : Fin 1) k j)
      = (V m c main_arg1 : S32x8x262144.Idx → EReal) (ix3 (layer t.val t.isLt) k j) := by
  obtain ⟨a0, a1, a2, -⟩ := idx_facts t
  show V m c main_arg1 (((cfg0.win 0).blk t).view.emb (ix3 (0 : Fin 1) k j)) = _
  refine congrArg (V m c main_arg1) (funext fun a => Fin.ext ?_)
  match a with
  | ⟨0, _⟩ => show win0_0.index t (0 : Fin 3) * 1 + 1 * 0 = t.val / 4; omega
  | ⟨1, _⟩ => show win0_0.index t (1 : Fin 3) * 8 + 1 * k.val = k.val; omega
  | ⟨2, _⟩ => show win0_0.index t (2 : Fin 3) * 262144 + 1 * j.val = j.val; omega

/-- The `last_param` chunk at `(0, k, j)` is `last_param[layer, k, lane j]`. -/
theorem lastParam_apply (c : Dev nD) (t : Fin cfg0.N) (k : Fin 8) (j : Fin 65536) :
    (iblk m c 1 t : Vec Ideal S1x8x65536 .f32) (ix3 (0 : Fin 1) k j)
      = (V m c main_arg0 : S32x8x262144.Idx → EReal) (ix3 (layer t.val t.isLt) k (lane t.val j)) := by
  obtain ⟨-, -, -, a0, a1, a2, -⟩ := idx_facts t
  show V m c main_arg0 (((cfg0.win 1).blk t).view.emb (ix3 (0 : Fin 1) k j)) = _
  refine congrArg (V m c main_arg0) (funext fun a => Fin.ext ?_)
  match a with
  | ⟨0, _⟩ => show win0_1.index t (0 : Fin 3) * 1 + 1 * 0 = t.val / 4; omega
  | ⟨1, _⟩ => show win0_1.index t (1 : Fin 3) * 8 + 1 * k.val = k.val; omega
  | ⟨2, _⟩ => show win0_1.index t (2 : Fin 3) * 65536 + 1 * j.val = 65536 * (t.val % 4) + j.val; omega

/-- The gate column's block at `(0, k, 0)` is the gate of `gamma[layer, k]`. -/
theorem gateBlock_apply (c : Dev nD) (t : Fin cfg0.N) (k : Fin 8) :
    (iblk m c 2 t : Vec Ideal S1x8x1 .f32) (ix3 (0 : Fin 1) k (0 : Fin 1))
      = gate (m ((c : Thread nD τ).loc main_arg2)) (layer t.val t.isLt) k := by
  obtain ⟨-, -, -, -, -, -, a0, a1, a2, -⟩ := idx_facts t
  refine Eq.trans ?_ (gateColumn_apply m c (layer t.val t.isLt) k)
  show V m c main_v1 (((cfg0.win 2).blk t).view.emb (ix3 (0 : Fin 1) k (0 : Fin 1))) = _
  refine congrArg (V m c main_v1) (funext fun a => Fin.ext ?_)
  match a with
  | ⟨0, _⟩ => show win0_2.index t (0 : Fin 3) * 1 + 1 * 0 = t.val / 4; omega
  | ⟨1, _⟩ => show win0_2.index t (1 : Fin 3) * 8 + 1 * k.val = k.val; omega
  | ⟨2, _⟩ => show win0_2.index t (2 : Fin 3) * 1 + 1 * 0 = 0; omega

/-- A chunk of a slab, loaded at the lane offset of lane-block coordinate `i 1`, at `(0, k, j)` is the slab at
    lane `65536 * (i 1) + j`. -/
theorem chunk_at {F : FTy → Type} [FloatOps F] (i : grid0.Coords) (x0 : Vec F S1x8x262144 .f32) (k : Fin 8) (j : Fin 65536)
    (jj : Fin 262144) (h : jj.val = 65536 * (i 1).val + j.val) :
    chunk i x0 (ix3 (0 : Fin 1) k j) = x0 (ix3 (0 : Fin 1) k jj) := by
  have e := k0_off1_eq i
  refine congrArg x0 (funext fun a => Fin.ext ?_)
  match a with
  | ⟨0, _⟩ => show k0_off1 i 0 + 1 * 0 = 0; rw [e]; rfl
  | ⟨1, _⟩ => show k0_off1 i 1 + 1 * k.val = k.val; rw [e]; show 0 + 1 * k.val = k.val; omega
  | ⟨2, _⟩ => show k0_off1 i 2 + 1 * j.val = jj.val; rw [e, h]; show 65536 * (i 1).val + 1 * j.val = _; omega

/-- So the slab's chunk at point `t`, at `(0, k, j)`, is `delta[layer, k, lane j]`. -/
theorem slabChunk_apply (c : Dev nD) (t : Fin cfg0.N) (k : Fin 8) (j : Fin 65536) :
    chunk (grid0.coords t) (iblk m c 0 t : Vec Ideal S1x8x262144 .f32) (ix3 (0 : Fin 1) k j)
      = (V m c main_arg1 : S32x8x262144.Idx → EReal) (ix3 (layer t.val t.isLt) k (lane t.val j)) := by
  obtain ⟨-, -, -, -, -, -, -, -, -, -, -, -, a⟩ := idx_facts t
  exact (chunk_at (grid0.coords t) (iblk m c 0 t) k j (lane t.val j) (by show 65536 * (t.val % 4) + j.val = _; rw [a])).trans
    (slab_apply m c t k (lane t.val j))

/-! ## The carried scratch holds the layer's weights -/

/-- The weights of layer `l` as an `[8, 8]` array. -/
def layerWeights (D : Arr.Idx → EReal) (l : Fin 32) : FVec Ideal S8x8 .bf16 := fun y => weight D l (y 0) (y 1)

theorem layerWeights_apply (D : Arr.Idx → EReal) (l : Fin 32) (k q : Fin 8) :
    layerWeights D l (ix2 k q) = share (Ideal.ofBits .f32 0xFF800000#32) (scoreRow D l k) q := rfl

/-- The weights the body computes from a slab that holds layer `l` of `D` are the weights of layer `l`. -/
theorem weights_of_slab (x0 : Vec Ideal S1x8x262144 .f32) (D : Arr.Idx → EReal) (l : Fin 32)
    (hs : ∀ (k : Fin 8) (j : Fin 262144), x0 (ix3 (0 : Fin 1) k j) = D (ix3 l k j)) :
    k0_pay1 (F := Ideal) x0 = layerWeights D l := by
  funext y
  obtain ⟨k, q, rfl⟩ : ∃ (k q : Fin 8), y = ix2 k q := ⟨y 0, y 1, eq_ix2 y⟩
  refine (weights_apply x0 k q).trans ?_
  refine Eq.trans ?_ (layerWeights_apply D l k q).symm
  refine congrArg (fun s => share (Ideal.ofBits .f32 0xFF800000#32) s q) (funext fun q' => ?_)
  show (∑ j : Fin 262144, x0 (ix3 (0 : Fin 1) k j) * x0 (ix3 (0 : Fin 1) q' j)) * Ideal.ofBits .f32 0x3B000000#32
    = (∑ j : Fin 262144, D (ix3 l k j) * D (ix3 l q' j)) * Ideal.ofBits .f32 0x3B000000#32
  refine congrArg (· * Ideal.ofBits .f32 0x3B000000#32) (Finset.sum_congr rfl fun j _ => ?_)
  rw [hs, hs]

/-- The weights the body computes from the resident slab at point `t` are those of `t`'s layer. -/
theorem firstWeights (c : Dev nD) (t : Fin cfg0.N) :
    k0_pay1 (F := Ideal) (iblk m c 0 t) = layerWeights (V m c main_arg1) (layer t.val t.isLt) :=
  weights_of_slab (iblk m c 0 t) (V m c main_arg1) (layer t.val t.isLt) (slab_apply m c t)

/-- AFTER EVERY POINT the carried scratch holds the weights of that point's layer: computed at the layer's
    first point, left alone at its later ones. -/
theorem carried (c : Dev nD) (n : ℕ) (h : n < cfg0.N) :
    (outsAt0 m c n h).2 = layerWeights (V m c main_arg1) (layer n h) := by
  induction n with
  | zero =>
    rw [outsAt0_A m c ⟨0, h⟩ (Nat.zero_mod 4)]
    exact (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) ((hcond0_0 ⟨0, h⟩).mpr (Nat.zero_mod 4))
      (iblk m c 0 ⟨0, h⟩) (iblk m c 1 ⟨0, h⟩) (iblk m c 2 ⟨0, h⟩)).trans (firstWeights m c ⟨0, h⟩)
  | succ n ih =>
    by_cases h0 : (n + 1) % 4 = 0
    · rw [outsAt0_A m c ⟨n + 1, h⟩ h0]
      exact (scratch_first c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (iblk m c 0 ⟨n + 1, h⟩) (iblk m c 1 ⟨n + 1, h⟩) (iblk m c 2 ⟨n + 1, h⟩)).trans
        (firstWeights m c ⟨n + 1, h⟩)
    · have key : ∀ (p : ℕ) (hp : p < cfg0.N), p = n →
          (outsAt0 m c p hp).2 = layerWeights (V m c main_arg1) (layer (n + 1) h) := by
        intro p hp e
        subst e
        rw [ih]
        exact congrArg (layerWeights (V m c main_arg1)) (Fin.ext (by show p / 4 = (p + 1) / 4; omega))
      have e := congrArg Prod.snd (outsAt0_B m c ⟨n + 1, h⟩ h0)
      dsimp only [sout0_B_0] at e
      exact e.trans (key _ _ (Nat.add_sub_cancel n 1))

/-! ## What each point writes back -/

/-- At EVERY point the output's staging buffer ends holding the output payload over the layer's weights:
    at a layer's first point the weights just computed, at a later one the carried ones. -/
theorem out_eq (c : Dev nD) (t : Fin cfg0.N) :
    (outsAt0 m c t.val t.isLt).1
      = k0_pay2 (F := Ideal) (layerWeights (V m c main_arg1) (layer t.val t.isLt)) (chunk (grid0.coords t) (iblk m c 0 t))
          (iblk m c 1 t) (iblk m c 2 t) := by
  by_cases h0 : t.val % 4 = 0
  · have e := congrArg Prod.fst (outsAt0_A m c t h0)
    dsimp only at e
    refine e.trans ((out_first c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t)).trans ?_)
    rw [firstWeights m c t]
  · have e := congrArg Prod.fst (outsAt0_B m c t h0)
    dsimp only at e
    refine e.trans ((out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t) _).trans ?_)
    rw [carried m c (t.val - 1)]
    exact congrArg (fun a => k0_pay2 (F := Ideal) (layerWeights (V m c main_arg1) a) (chunk (grid0.coords t) (iblk m c 0 t))
      (iblk m c 1 t) (iblk m c 2 t)) (Fin.ext (by show (t.val - 1) / 4 = t.val / 4; omega))

/-- … which at `(0, k, j)` is the specification at `(layer, k, lane j)`. -/
theorem out_apply (c : Dev nD) (t : Fin cfg0.N) (k : Fin 8) (j : Fin 65536) :
    (outsAt0 m c t.val t.isLt).1 (ix3 (0 : Fin 1) k j)
      = mixAt (V m c main_arg0) (V m c main_arg1) (m ((c : Thread nD τ).loc main_arg2)) (layer t.val t.isLt) k (lane t.val j) := by
  rw [out_eq m c t]
  refine (chunk_apply (layerWeights (V m c main_arg1) (layer t.val t.isLt)) (chunk (grid0.coords t) (iblk m c 0 t))
    (iblk m c 1 t) (iblk m c 2 t) k j).trans ?_
  unfold mixAt
  refine congrArg₂ (· + ·) (lastParam_apply m c t k j) (congrArg₂ (· + ·)
    (congrArg₂ (· * ·) (congrArg (Ideal.ofBits .f32 0x3F800000#32 - ·) (gateBlock_apply m c t k)) (slabChunk_apply m c t k j))
    (congrArg₂ (· * ·) (gateBlock_apply m c t k) (Finset.sum_congr rfl fun q _ => ?_)))
  exact congrArg (layerWeights (V m c main_arg1) (layer t.val t.isLt) (ix2 k q) * ·) (slabChunk_apply m c t q j)

/-- A `[1, 8, 65536]` array that holds, at `(0, k, j)`, an array `G` at `(layer, k, lane j)` is `G` read through
    point `t`'s block of the result. -/
theorem block_eq (G : S32x8x262144.Idx → EReal) (t : Fin cfg0.N) (X : Vec Ideal S1x8x65536 .f32)
    (hX : ∀ (k : Fin 8) (j : Fin 65536), X (ix3 (0 : Fin 1) k j) = G (ix3 (layer t.val t.isLt) k (lane t.val j))) :
    X = ((cfg0.win 3).blk t).view.read (Elt Ideal) G := by
  obtain ⟨-, -, -, -, -, -, -, -, -, a0, a1, a2, -⟩ := idx_facts t
  funext y
  obtain ⟨u, k, j, rfl⟩ : ∃ (u : Fin 1) (k : Fin 8) (j : Fin 65536), y = ix3 u k j := ⟨y 0, y 1, y 2, eq_ix3 y⟩
  obtain rfl : u = 0 := Subsingleton.elim _ _
  rw [hX]
  show G _ = G (((cfg0.win 3).blk t).view.emb (ix3 (0 : Fin 1) k j))
  refine congrArg G (funext fun a => Fin.ext ?_)
  match a with
  | ⟨0, _⟩ => show t.val / 4 = win0_3.index t (0 : Fin 3) * 1 + 1 * 0; omega
  | ⟨1, _⟩ => show k.val = win0_3.index t (1 : Fin 3) * 8 + 1 * k.val; omega
  | ⟨2, _⟩ => show 65536 * (t.val % 4) + j.val = win0_3.index t (2 : Fin 3) * 65536 + 1 * j.val; omega

/-- WHAT POINT `t` WRITES BACK is the specification read through `t`'s block. -/
theorem flushed_eq (c : Dev nD) (t : Fin cfg0.N) :
    (dats m 0 c).flushed 3 t = ((cfg0.win 3).blk t).view.read (Elt Ideal)
      (mix (V m c main_arg0) (V m c main_arg1) (m ((c : Thread nD τ).loc main_arg2))) := by
  rw [Cert.KernelIdeal.Value.flushed3]
  exact block_eq (mix (V m c main_arg0) (V m c main_arg1) (m ((c : Thread nD τ).loc main_arg2))) t _
    (fun k j => out_apply m c t k j)

/-! ## The chunks tile the result -/

/-- An index is in point `t`'s block iff each coordinate is in the block's range on its axis. -/
theorem mem_blk (t : Fin cfg0.N) (i : S32x8x262144.Idx) :
    i ∈ ((cfg0.win 3).blk t).view.set ↔ ∀ a : Fin 3, win0_3.index t a * S1x8x65536.size a ≤ (i a).val
      ∧ (i a).val < win0_3.index t a * S1x8x65536.size a + S1x8x65536.size a := by
  show i ∈ ((View.whole main_v2).slice (win0_3.rect t)).set ↔ _
  rw [View.set_slice_whole, Rect.mem_set_unit]
  exact Iff.rfl

/-- Every index of the result is in the block of the point `4 * layer + lane / 65536`. -/
theorem cover (i : S32x8x262144.Idx) :
    ∃ t : Fin cfg0.N, (cfg0.win 3).flush t = true ∧ i ∈ ((cfg0.win 3).blk t).view.set := by
  have hN : cfg0.N = 128 := N_0
  have h0 : (i 0).val < 32 := (i 0).isLt
  have h1 : (i 1).val < 8 := (i 1).isLt
  have h2 : (i 2).val < 262144 := (i 2).isLt
  obtain ⟨t, ht⟩ : ∃ t : Fin cfg0.N, t.val = 4 * (i 0).val + (i 2).val / 65536 := ⟨⟨_, by omega⟩, rfl⟩
  obtain ⟨-, -, -, -, -, -, -, -, -, a0, a1, a2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 65536 ≤ (i 2).val ∧ (i 2).val < win0_3.index t (2 : Fin 3) * 65536 + 65536; omega

/-! ## The run, read -/

/-- After the run the result array is the specification of the three argument arrays. -/
theorem final (c : Dev nD) :
    (dats m 0 c).arrAt 3 cfg0.N = mix (m ((c : Thread nD τ).loc main_arg0)) (m ((c : Thread nD τ).loc main_arg1)) (m ((c : Thread nD τ).loc main_arg2)) := by
  have e := (dats m 0 c).arrAt_eq_of_cover 3 (mix (V m c main_arg0) (V m c main_arg1) (m ((c : Thread nD τ).loc main_arg2)))
    (fun t _ => flushed_eq m c t) cover
  rw [V_main_arg0, V_main_arg1] at e
  exact e

/-- Every weakly fair execution of the kernel's program terminates with the result array at the specification
    and the arguments unchanged. -/
theorem run : θ_run defs (onTc (τ := τ) (main (F := Ideal))) ⟨m, fun _ => 0, ρ⟩ fun r => ∀ c : Dev nD,
      r.2.mem ((c : Thread nD τ).loc main_v2) = mix (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Mix

end
-- ==== Proof.Consts.lean ====
/-
  The float constants the two programs spell, as the extended reals their words denote, and the one
  relation between them the comparison needs: the reference raises 262144 to the power -1/2 where the
  kernel multiplies by the word of 1/512. Since 262144 = 512², the power is exactly 1/512, a dyadic
  rational, so the two scale factors are the same extended real.
-/
import Idealize.ShloMosaic.PureOps.Ideal

noncomputable section

namespace Cert.AttnMix.Consts

open Idealize.ShloMosaic

/-- The word of `262144.0` denotes the real 262144 = 2¹⁸. -/
theorem ofBits_262144 : Ideal.ofBits .f32 0x48800000#32 = ((262144 : ℝ) : EReal) := by
  simp [Ideal.ofBits, Ideal.ieee, -EReal.coe_mul]; norm_num

/-- The word of `-0.5` denotes the real -1/2. -/
theorem ofBits_neg_half : Ideal.ofBits .f32 0xBF000000#32 = ((-(1 / 2) : ℝ) : EReal) := by
  simp [Ideal.ofBits, Ideal.ieee, -EReal.coe_mul]; norm_num

/-- The word of `0.001953125` denotes the real 1/512 = 2⁻⁹. -/
theorem ofBits_inv_512 : Ideal.ofBits .f32 0x3B000000#32 = ((1 / 512 : ℝ) : EReal) := by
  simp [Ideal.ofBits, Ideal.ieee, -EReal.coe_mul]; norm_num

/-- 262144 to the power -1/2 is 1/512: 262144 is the square of 512. -/
theorem rpow_262144 : Real.rpow 262144 (-(1 / 2)) = 1 / 512 := by
  rw [show (262144 : ℝ) = 512 ^ (2 : ℝ) by norm_num, Real.rpow_eq_pow, ← Real.rpow_mul (by norm_num)]
  rw [show (2 : ℝ) * -(1 / 2) = -1 by norm_num, Real.rpow_neg_one]
  norm_num

/-- So the reference's scale, the power of the two words, is the kernel's scale word. -/
theorem pow_words : Ideal.pow (Ideal.ofBits .f32 0x48800000#32) (Ideal.ofBits .f32 0xBF000000#32)
    = Ideal.ofBits .f32 0x3B000000#32 := by
  rw [ofBits_262144, ofBits_neg_half, ofBits_inv_512, Ideal.pow_coe_coe, rpow_262144]

/-- The word of `-inf` denotes the bottom element, so a maximum with it changes nothing. -/
theorem max_neg_inf (y : EReal) : max (Ideal.ofBits .f32 0xFF800000#32) y = y := by
  simp [Ideal.ofBits, Ideal.ieee]

end Cert.AttnMix.Consts

end
-- ==== Proof.RefMix.lean ====
/-
  THE REFERENCE'S RESULT ARRAY IS THE SPECIFICATION, at the ideal values.

  The reference computes, over whole arrays: the batched inner products of the rows of `delta`, scaled by
  `262144 ^ (-1/2)`; `jax.nn.softmax` over the last axis (the row maximum from `-inf`, once more joined with
  `-inf`; the shifted exponentials; their sum from `0`; the quotient); the batched product of the weights
  with `delta`; the clamp of `gamma`; the blend and the final sum. Read at one index `(l, k, j)`, stage by
  stage, this is the specification's expression there. Two things are not literally the same text: the scale
  (the power is the word of 1/512) and the maximum's extra `-inf` (which changes nothing).
-/
import proofs.«159951_j42752104464609_2_alg».proof.Proof.Gen.ReferenceIdeal.Read
import proofs.«159951_j42752104464609_2_alg».proof.Proof.MixSpec
import proofs.«159951_j42752104464609_2_alg».proof.Proof.Consts
import Idealize.ShloMosaic.PureOps.Reduce

noncomputable section

open scoped BigOperators

namespace Cert.ReferenceIdeal.RefMix

open Cert.ReferenceIdeal Cert.ReferenceIdeal.Gen Cert.ReferenceIdeal.Read Idealize.ShloMosaic Idealize.ShloMosaic.ValueIdx
open Cert.AttnMix Cert.RowSoftmax

variable (x1 : S32x8x262144.Idx → EReal)

/-- The scaled inner products at `(l, k, q)`. -/
theorem score_eq (l : Fin 32) (k q : Fin 8) :
    val_main_v3 (F := Ideal) x1 (ix3 l k q) = scoreRow x1 l k q := by
  rw [val_main_v3_apply, val_main_v1_apply, val_main_v2_apply, val_main_v0_apply, val_main_cst_apply, val_main_cst_0_apply]
  show (∑ j : Fin 262144, x1 (lidx_main_v1 (ix3 l k q) j) * x1 (ridx_main_v1 (ix3 l k q) j))
      * Ideal.pow (Ideal.ofBits .f32 0x48800000#32) (Ideal.ofBits .f32 0xBF000000#32) = _
  rw [Cert.AttnMix.Consts.pow_words]
  refine congrArg (· * Ideal.ofBits .f32 0x3B000000#32) (Finset.sum_congr rfl fun j _ => ?_)
  exact congrArg₂ (· * ·)
    (congrArg x1 (funext fun a => Fin.ext (by match a with | ⟨0, _⟩ => rfl | ⟨1, _⟩ => rfl | ⟨2, _⟩ => rfl)))
    (congrArg x1 (funext fun a => Fin.ext (by match a with | ⟨0, _⟩ => rfl | ⟨1, _⟩ => rfl | ⟨2, _⟩ => rfl)))

/-- The row maximum at `(l, k)`: the greatest of `-inf` and the row's scores. -/
theorem rowMax_eq (l : Fin 32) (k : Fin 8) :
    val_main_v6 (F := Ideal) x1 (ix2 l k) = rowMax (Ideal.ofBits .f32 0xFF800000#32) (scoreRow x1 l k) := by
  rw [val_main_v6_apply, val_main_v5_apply, val_main_cst_2_apply]
  show max (Ideal.ofBits .f32 0xFF800000#32) (val_main_v4 (F := Ideal) x1 (ix2 l k)) = _
  rw [Cert.AttnMix.Consts.max_neg_inf]
  unfold val_main_v4
  have hred : S32x8x8.Reduces [(2 : Fin 3)] S32x8 := by decide
  refine (Host.reduce_eq_fold_single (α := Ideal .f32) FloatOps.maximumf (val_main_v3 (F := Ideal) x1 : S32x8x8.Idx → Ideal .f32)
    (val_main_cst_1 (F := Ideal) : S_.Idx → Ideal .f32) reducesTo_S32x8x8_S32x8_d2 hred h_S_ (ix2 l k)).trans ?_
  unfold rowMax
  show (Finset.univ : Finset (Fin 8)).fold max (Ideal.ofBits .f32 0xFF800000#32)
      (fun q => val_main_v3 (F := Ideal) x1 (hred.lift (ix2 l k) q)) = _
  refine Finset.fold_congr fun q _ => ?_
  refine Eq.trans (congrArg (val_main_v3 (F := Ideal) x1) ?_) (score_eq x1 l k q)
  exact funext fun a => Fin.ext (by match a with | ⟨0, _⟩ => rfl | ⟨1, _⟩ => rfl | ⟨2, _⟩ => rfl)

/-- The shifted exponential at `(l, k, q)`. -/
theorem expo_eq (l : Fin 32) (k q : Fin 8) :
    val_main_v10 (F := Ideal) x1 (ix3 l k q)
      = Ideal.exp (scoreRow x1 l k q - rowMax (Ideal.ofBits .f32 0xFF800000#32) (scoreRow x1 l k)) := by
  rw [val_main_v10_apply, val_main_v9_apply, val_main_v8_apply, val_main_v7_apply]
  rw [show idx_main_v7 (idx_main_v8 (ix3 l k q)) = ix2 l k from
    funext fun a => Fin.ext (by match a with | ⟨0, _⟩ => rfl | ⟨1, _⟩ => rfl)]
  rw [score_eq, rowMax_eq]
  simp only [Ideal.hostUnary_exp_def, Ideal.subf_def]

/-- The softmax weight at `(l, k, q)`. -/
theorem weight_eq (l : Fin 32) (k q : Fin 8) :
    val_main_v14 (F := Ideal) x1 (ix3 l k q) = weight x1 l k q := by
  rw [val_main_v14_apply, val_main_v13_apply, val_main_v12_apply, val_main_v11_apply, val_main_cst_3_apply]
  rw [show idx_main_v12 (idx_main_v13 (ix3 l k q)) = ix2 l k from
    funext fun a => Fin.ext (by match a with | ⟨0, _⟩ => rfl | ⟨1, _⟩ => rfl)]
  rw [expo_eq]
  show Ideal.div _ (Ideal.ofBits .f32 0x00000000#32 + ∑ q' : Fin 8, val_main_v10 (F := Ideal) x1 (idx_main_v11 (ix2 l k) q')) = _
  rw [Ideal.ofBits_zero_f32, zero_add]
  unfold weight share
  refine congrArg (Ideal.div _) (Finset.sum_congr rfl fun q' _ => ?_)
  refine Eq.trans (congrArg (val_main_v10 (F := Ideal) x1) ?_) (expo_eq x1 l k q')
  exact funext fun a => Fin.ext (by match a with | ⟨0, _⟩ => rfl | ⟨1, _⟩ => rfl | ⟨2, _⟩ => rfl)

/-- The weighted combination of the layer's rows at `(l, k, j)`. -/
theorem cross_eq (l : Fin 32) (k : Fin 8) (j : Fin 262144) :
    val_main_v15 (F := Ideal) x1 (ix3 l k j) = ∑ q : Fin 8, weight x1 l k q * x1 (ix3 l q j) := by
  rw [val_main_v15_apply]
  refine Finset.sum_congr rfl fun q _ => ?_
  refine congrArg₂ (· * ·) ?_ ?_
  · refine Eq.trans (congrArg (val_main_v14 (F := Ideal) x1) ?_) (weight_eq x1 l k q)
    exact funext fun a => Fin.ext (by match a with | ⟨0, _⟩ => rfl | ⟨1, _⟩ => rfl | ⟨2, _⟩ => rfl)
  · exact congrArg x1 (funext fun a => Fin.ext (by match a with | ⟨0, _⟩ => rfl | ⟨1, _⟩ => rfl | ⟨2, _⟩ => rfl))

/-- The clamped `gamma` as a column at `(l, k, 0)`. -/
theorem gate_eq (x2 : S32x8.Idx → EReal) (l : Fin 32) (k : Fin 8) :
    val_main_v17 (F := Ideal) x2 (ix3 l k (0 : Fin 1)) = gate x2 l k := by
  rw [val_main_v17_apply]
  rw [show idx_main_v17 (ix3 l k (0 : Fin 1)) = ix2 l k from
    funext fun a => Fin.ext (by match a with | ⟨0, _⟩ => rfl | ⟨1, _⟩ => rfl)]
  rw [val_main_v16_apply, val_main_call0_v4_apply, val_main_call0_v3_apply, val_main_cst_5_apply,
    val_main_call0_v2_apply, val_main_call0_v1_apply, val_main_call0_v0_apply, val_main_cst_4_apply]
  rfl

/-- THE REFERENCE'S RESULT is the specification of its three arguments. -/
theorem result_eq (x0 : S32x8x262144.Idx → EReal) (x2 : S32x8.Idx → EReal) :
    val_main_v25 (F := Ideal) x0 x1 x2 = mix x0 x1 x2 := by
  funext i
  obtain ⟨l, k, j, rfl⟩ : ∃ (l : Fin 32) (k : Fin 8) (j : Fin 262144), i = ix3 l k j := ⟨i 0, i 1, i 2, eq_ix3 i⟩
  rw [mix_ix3]
  unfold mixAt
  rw [val_main_v25_apply, val_main_v24_apply, val_main_v21_apply, val_main_v23_apply, val_main_v20_apply, val_main_v22_apply,
    val_main_v19_apply, val_main_v18_apply, val_main_cst_6_apply]
  rw [show idx_main_v20 (ix3 l k j) = ix3 l k (0 : Fin 1) from
      funext fun a => Fin.ext (by match a with | ⟨0, _⟩ => rfl | ⟨1, _⟩ => rfl | ⟨2, _⟩ => rfl),
    show idx_main_v22 (ix3 l k j) = ix3 l k (0 : Fin 1) from
      funext fun a => Fin.ext (by match a with | ⟨0, _⟩ => rfl | ⟨1, _⟩ => rfl | ⟨2, _⟩ => rfl)]
  rw [gate_eq, cross_eq]
  rfl

end Cert.ReferenceIdeal.RefMix

end
-- ==== Proof.lean ====
/-
  A gated self-attention mix of model deltas, against its jnp reference, over the extended reals.

  For each of 32 layers the 8 rows of `delta[l]` (262144 entries each) are compared with one another by
  their inner products scaled by 1/512; row `k`'s scores become weights by a softmax over the rows; the
  weighted combination of the rows is blended with row `k` itself by the gate `g = clamp (gamma[l, k]) 0 1`
  and added to `last_param`:

      out[l, k, j] = last_param[l, k, j] + ((1 - g) * delta[l, k, j] + g * ∑ m, weight l k m * delta[l, m, j])

  (Proof/MixSpec.lean). Both programs compute exactly this expression, with the same operations in the same
  order at every index; no algebraic law of the extended reals beyond that is used, and the inputs' finiteness
  is never needed.

  * The kernel walks a 32 × 4 grid: one layer's slab of `delta` stays resident over the layer's four lane
    chunks; at the layer's first chunk the 8 × 8 weights are computed from the whole slab and kept in a
    scratch that the later chunks read. After every point the scratch holds the weights of that point's layer
    (induction on the point), so every chunk written back is the specification's chunk, and the 128 chunks
    tile the result (Proof/CaseValues.lean, Proof/PayloadsAt.lean, Proof/KernelMix.lean).
  * The reference computes the same over whole arrays; read at an index stage by stage it is the
    specification (Proof/RefMix.lean). Its scale is `262144 ^ (-1/2)`, which is the kernel's word 1/512 because
    262144 = 512²; its row maximum carries one more join with `-inf`, which changes nothing (Proof/Consts.lean).
  * Changes of float format are the identity on extended reals, and a matrix product into a zero accumulator
    is the plain sum over the contracted axis on both sides.

  The word-level kernel and the idealized one are the same text (no rewrite was applied), so the idealization
  claim is trivial; the three frame claims are the generated frame runs.
-/
import proofs.«159951_j42752104464609_2_alg».proof.Defs
import proofs.«159951_j42752104464609_2_alg».proof.Proof.Gen.Kernel
import proofs.«159951_j42752104464609_2_alg».proof.Proof.Gen.Kernel.Frame
import proofs.«159951_j42752104464609_2_alg».proof.Proof.Gen.KernelIdeal
import proofs.«159951_j42752104464609_2_alg».proof.Proof.Gen.KernelIdeal.Frame
import proofs.«159951_j42752104464609_2_alg».proof.Proof.Gen.KernelIdeal.Value
import proofs.«159951_j42752104464609_2_alg».proof.Proof.Gen.ReferenceIdeal
import proofs.«159951_j42752104464609_2_alg».proof.Proof.Gen.ReferenceIdeal.Run
import proofs.«159951_j42752104464609_2_alg».proof.Proof.Gen.ReferenceIdeal.Read
import proofs.«159951_j42752104464609_2_alg».proof.Proof.Gen.Pre_finite_inputs
import proofs.«159951_j42752104464609_2_alg».proof.Proof.KernelMix
import proofs.«159951_j42752104464609_2_alg».proof.Proof.RefMix
import Idealize.ShloMosaic.Adequacy
import Idealize.ShloMosaic.Init

noncomputable section

namespace Cert.Proof

open Idealize.ShloMosaic Idealize.SL.Sem

/-- The word-level kernel runs and leaves its arguments as they were: the generated frame run. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as they were: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the three arguments both programs end with the result array at the
    specification of those arguments: the kernel by its run read block by block, the reference by its run
    read stage by stage. -/
theorem algebraic : Cert.algebraic_KernelIdeal_ReferenceIdeal := by
  intro m ρ m' ρ' _ hagree
  refine ⟨fun c => Cert.AttnMix.mix
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Mix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefMix.result_eq, (hagree c).1, (hagree c).2.1,
    (hagree c).2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
